-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256 .f32) (main_arg10 : FVec F S256x128 .f32) (main_arg11 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S512x256 .f32) (main_arg7 : FVec F S256 .f32) (main_arg8 : FVec F S256x256 .f32) (main_arg9 : FVec F S256 .f32) (main_arg10 : FVec F S256x128 .f32) (main_arg11 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x512 .f32) (main_arg1 : IVec S800000 32) (main_arg2 : IVec S800000 32) (main_arg3 : FVec F S800000 .f32) (main_arg4 : FVec F S512x512 .f32) (main_arg5 : FVec F S512 .f32) (main_arg6 : FVec F S512x256 .f32) (main_arg7 : FVec F S256 .f32) (main_arg8 : FVec F S256x256 .f32) (main_arg9 : FVec F S256 .f32) (main_arg10 : FVec F S256x128 .f32) (main_arg11 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_v13 main_v16
-- ==== Kernel.lean ====
abbrev S50000x512 : Shape := ⟨2, ![50000, 512]⟩
abbrev S800000 : Shape := ⟨1, ![800000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S1x512 : Shape := ⟨2, ![1, 512]⟩
abbrev S1000x512 : Shape := ⟨2, ![1000, 512]⟩
abbrev S1x256 : Shape := ⟨2, ![1, 256]⟩
abbrev S50000x256 : Shape := ⟨2, ![50000, 256]⟩
abbrev S1000x256 : Shape := ⟨2, ![1000, 256]⟩
abbrev S800000x1 : Shape := ⟨2, ![800000, 1]⟩
abbrev S800000x256 : Shape := ⟨2, ![800000, 256]⟩
abbrev S1x128 : Shape := ⟨2, ![1, 128]⟩
abbrev S50000x128 : Shape := ⟨2, ![50000, 128]⟩
abbrev S1000x128 : Shape := ⟨2, ![1000, 128]⟩

abbrev nBuf : Space → Nat
  | .hbm => 66
  | .vmem => 24
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S_, .f32⟩
  | .hbm, ⟨13, _⟩ => ⟨S256, .f32⟩
  | .hbm, ⟨14, _⟩ => ⟨S1x512, .f32⟩
  | .hbm, ⟨15, _⟩ => ⟨S50000x512, .f32⟩
  | .hbm, ⟨16, _⟩ => ⟨S1x256, .f32⟩
  | .hbm, ⟨17, _⟩ => ⟨S50000x256, .f32⟩
  | .hbm, ⟨18, _⟩ => ⟨S800000x1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x256, .f32⟩
  | .hbm, ⟨28, _⟩ => ⟨S800000x256, .f32⟩
  | .hbm, ⟨29, _⟩ => ⟨S800000x256, .f32⟩
  | .hbm, ⟨30, _⟩ => ⟨S_, .f32⟩
  | .hbm, ⟨31, _⟩ => ⟨S50000x256, .f32⟩
  | .hbm, ⟨32, _⟩ => ⟨S800000x1, .i32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S800000x1, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S800000x256, .f32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000x256, .f32⟩
  | .hbm, ⟨63, _⟩ => ⟨S50000x256, .f32⟩
  | .hbm, ⟨64, _⟩ => ⟨S1x128, .f32⟩
  | .hbm, ⟨65, _⟩ => ⟨S50000x128, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S512x256, .f32⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S256x256, .f32⟩
  | .local _ .vmem, ⟨15, _⟩ => ⟨S1x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S256x128, .f32⟩
  | .local _ .vmem, ⟨21, _⟩ => ⟨S1x128, .f32⟩
  | .local _ .vmem, ⟨22, _⟩ => ⟨S1000x128, .f32⟩
  | .local _ .vmem, ⟨23, _⟩ => ⟨S1000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S256 : S_.BroadcastsInDim S256 (![] : Fin 0 → Fin S256.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  shapeCasts_S256_S1x256 : S256.ShapeCasts S1x256
  shapeCasts_S1000x512_S1000x512 : S1000x512.ShapeCasts S1000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x256_S1000x256_1_0_0_1_n_n_wf : DotDims.WF S1000x256 S256x256 S1000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S50000x512.size a
  hwx0_3 : ∀ i : grid0.Coords, EltTy.bits .f32 = 32 ∨ (Rect.block (s := S50000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S50000x256.size a
  hwx2_3 : ∀ i : grid2.Coords, EltTy.bits .f32 = 32 ∨ (Rect.block (s := S50000x256) S1000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S50000x128.size a
  hwx3_3 : ∀ i : grid3.Coords, EltTy.bits .f32 = 32 ∨ (Rect.block (s := S50000x128) S1000x128.size (cc3_transform_3 i) (hinb3_3 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S800000 : Shape := ⟨1, ![800000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x512 : Shape := ⟨2, ![1, 512]⟩
abbrev S_ : Shape := ⟨0, ![]⟩
abbrev S50000x256 : Shape := ⟨2, ![50000, 256]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S50000x512, .f32⟩
  | .hbm, ⟨13, _⟩ => ⟨S1x512, .f32⟩
  | .hbm, ⟨14, _⟩ => ⟨S50000x512, .f32⟩
  | .hbm, ⟨15, _⟩ => ⟨S50000x512, .f32⟩
  | .hbm, ⟨16, _⟩ => ⟨S50000x512, .f32⟩
  | .hbm, ⟨17, _⟩ => ⟨S50000x512, .f32⟩
  | .hbm, ⟨18, _⟩ => ⟨S_, .f32⟩
  | .hbm, ⟨19, _⟩ => ⟨S50000x512, .f32⟩
  | .hbm, ⟨20, _⟩ => ⟨S50000x512, .f32⟩
  | .hbm, ⟨21, _⟩ => ⟨S_, .f32⟩
  | .hbm, ⟨22, _⟩ => ⟨S50000x512, .f32⟩
  | .hbm, ⟨23, _⟩ => ⟨S50000x512, .f32⟩
  | .hbm, ⟨24, _⟩ => ⟨S50000x256, .f32⟩
  | .hbm, ⟨25, _⟩ => ⟨S800000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x256, .f32⟩
  | .hbm, ⟨35, _⟩ => ⟨S800000x256, .f32⟩
  | .hbm, ⟨36, _⟩ => ⟨S800000x256, .f32⟩
  | .hbm, ⟨37, _⟩ => ⟨S_, .f32⟩
  | .hbm, ⟨38, _⟩ => ⟨S50000x256, .f32⟩
  | .hbm, ⟨39, _⟩ => ⟨S800000x1, .i32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S800000x1, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S800000x256, .f32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_cst : Ref sig .tc := ⟨.hbm, 44, rfl⟩
abbrev main_call0_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_3 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call1_cst : Ref sig .tc := ⟨.hbm, 67, rfl⟩
abbrev main_call1_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x512_S512x512_S50000x512_1_0_0_1_n_n_wf : DotDims.WF S50000x512 S512x512 S50000x512 [1] [0] [0] [1] [] []
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Layers.lean ====
/-
  The network's dense layers and its edge aggregation, each as ONE function of whole arrays at the
  exact (extended-real) instance, and the reference program's stages written with them.

  A dense layer sends a matrix `y` of node rows to `y · w`: entry (r, j) is the sum over k of
  y(r, k) · w(k, j).  The first layer adds a bias row and applies the logistic function; the last adds
  a bias row.  Between the dense layers the network aggregates along the edges: row `col e` of the
  node matrix, scaled by the weight of edge `e`, is added into row `row e`; a bias row is added and the
  result clamped below at zero.  The aggregation is carried as one function and never opened: both
  programs apply it, to node matrices that are shown equal.
-/
import proofs.«130241_j25829933318528_1_alg».proof.Proof.Gen.ReferenceIdeal.Read

noncomputable section

namespace Cert.Layers

open Cert.ReferenceIdeal Cert.ReferenceIdeal.Gen Cert.ReferenceIdeal.Read Idealize.ShloMosaic

/-- The first layer: entry (r, j) is the logistic function of the sum over k of x(r, k) · w(k, j), plus b(j). -/
def hidden (x : FVec Ideal S50000x512 .f32) (w : FVec Ideal S512x512 .f32) (b : FVec Ideal S512 .f32) :
    FVec Ideal S50000x512 .f32 := fun i =>
  FloatOps.logistic (FloatOps.addf (∑ k : Fin 512, x (lidx_main_v0 i k) * w (ridx_main_v0 i k)) (b (idx_main_v1 (idx_main_v2 i))))

/-- The product of the 512-wide node matrix with a 512 × 256 weight matrix. -/
def proj1 (y : FVec Ideal S50000x512 .f32) (w : FVec Ideal S512x256 .f32) : FVec Ideal S50000x256 .f32 := fun i =>
  ∑ k : Fin 512, y (lidx_main_v10 i k) * w (ridx_main_v10 i k)

/-- The product of the 256-wide node matrix with a 256 × 256 weight matrix. -/
def proj2 (y : FVec Ideal S50000x256 .f32) (w : FVec Ideal S256x256 .f32) : FVec Ideal S50000x256 .f32 := fun i =>
  ∑ k : Fin 256, y (lidx_main_v28 i k) * w (ridx_main_v28 i k)

/-- The last layer: entry (r, j) is the sum over k of y(r, k) · w(k, j), plus b(j). -/
def readout (y : FVec Ideal S50000x256 .f32) (w : FVec Ideal S256x128 .f32) (b : FVec Ideal S128 .f32) :
    FVec Ideal S50000x128 .f32 := fun i =>
  FloatOps.addf (∑ k : Fin 256, y (lidx_main_v46 i k) * w (ridx_main_v46 i k)) (b (idx_main_v47 (idx_main_v48 i)))

/-- The aggregation along the edges followed by the bias row and the clamp at zero, as the reference spells it:
    negative column indices wrap once, the rows named by `col` are gathered and scaled by the edge weights, and
    the scaled rows are added into a zero matrix at the rows named by `row`. -/
def aggregate (h : FVec Ideal S50000x256 .f32) (row col : IVec S800000 32) (wgt : FVec Ideal S800000 .f32)
    (bias : FVec Ideal S256 .f32) : FVec Ideal S50000x256 .f32 :=
  maximumf
    (addf
      (Host.scatterAdd scatter_S50000x256_S800000x1_S800000x256_1_0_0_1
        (broadcastInDim S50000x256 ![] bcast_S_S50000x256 (constant (F := Ideal) S_ .f32 0x00000000#32))
        (broadcastInDim S800000x1 ![0] bcast_S800000_S800000x1_0 row)
        (mulf
          (broadcastInDim S800000x256 ![0, 1] bcast_S800000x1_S800000x256_0_1
            (broadcastInDim S800000x1 ![0] bcast_S800000_S800000x1_0 wgt))
          (Host.gather gather_S50000x256_S800000x1_S800000x256_1_0_n_n_0_1_1256 h
            (broadcastInDim S800000x1 ![0] bcast_S800000_S800000x1_0
              (select (cmpi .slt col (broadcastInDim S800000 ![] bcast_S_S800000 (constantI S_ 32 0#32)))
                (addi col (broadcastInDim S800000 ![] bcast_S_S800000 (constantI S_ 32 50000#32))) col)))))
      (broadcastInDim S50000x256 ![0, 1] bcast_S1x256_S50000x256_0_1 (broadcastInDim S1x256 ![1] bcast_S256_S1x256_1 bias)))
    (broadcastInDim S50000x256 ![] bcast_S_S50000x256 (constant (F := Ideal) S_ .f32 0x00000000#32))

/-- The aggregation of one node matrix along equal edge arrays, with equal bias rows, is the same. -/
theorem aggregate_congr (h : FVec Ideal S50000x256 .f32) {row row' col col' : IVec S800000 32} {wgt wgt' : FVec Ideal S800000 .f32}
    {bias bias' : FVec Ideal S256 .f32} (e1 : row = row') (e2 : col = col') (e3 : wgt = wgt') (e4 : bias = bias') :
    aggregate h row col wgt bias = aggregate h row' col' wgt' bias' := by
  rw [e1, e2, e3, e4]

/-- The single-precision word of one denotes the real number one. -/
theorem one_word : FloatOps.ofBits (F := Ideal) .f32 0x3F800000#32 = (1 : EReal) := by
  show Ideal.ofBits .f32 0x3F800000#32 = 1
  simp [Ideal.ofBits, Ideal.ieee, -EReal.coe_mul]; norm_num

variable (x0 : FVec Ideal S50000x512 .f32) (x1 x2 : IVec S800000 32) (x3 : FVec Ideal S800000 .f32)
  (x4 : FVec Ideal S512x512 .f32) (x5 : FVec Ideal S512 .f32) (x6 : FVec Ideal S512x256 .f32) (x7 : FVec Ideal S256 .f32)
  (x8 : FVec Ideal S256x256 .f32) (x9 : FVec Ideal S256 .f32) (x10 : FVec Ideal S256x128 .f32) (x11 : FVec Ideal S128 .f32)

/-- The reference's first stage group — product, bias, negate, exponential, one plus, one over — is the first layer:
    1 / (1 + e^(-z)) is the logistic function of z on the extended reals. -/
theorem ref_hidden : val_main_v9 (F := Ideal) x0 x4 x5 = hidden x0 x4 x5 := by
  funext i
  rw [val_main_v9_apply, val_main_v8_apply, val_main_cst_0_apply, val_main_v7_apply, val_main_v6_apply, val_main_cst_apply,
    val_main_v5_apply, val_main_v4_apply, val_main_v3_apply, val_main_v2_apply, val_main_v1_apply, val_main_v0_apply, one_word]
  rfl

theorem ref_proj1 : val_main_v10 (F := Ideal) x0 x4 x5 x6 = proj1 (val_main_v9 (F := Ideal) x0 x4 x5) x6 :=
  funext fun i => val_main_v10_apply x0 x4 x5 x6 i

theorem ref_aggregate1 : val_main_v27 (F := Ideal) x0 x1 x2 x3 x4 x5 x6 x7
    = aggregate (val_main_v10 (F := Ideal) x0 x4 x5 x6) x1 x2 x3 x7 := rfl

theorem ref_proj2 : val_main_v28 (F := Ideal) x0 x1 x2 x3 x4 x5 x6 x7 x8
    = proj2 (val_main_v27 (F := Ideal) x0 x1 x2 x3 x4 x5 x6 x7) x8 :=
  funext fun i => val_main_v28_apply x0 x1 x2 x3 x4 x5 x6 x7 x8 i

theorem ref_aggregate2 : val_main_v45 (F := Ideal) x0 x1 x2 x3 x4 x5 x6 x7 x8 x9
    = aggregate (val_main_v28 (F := Ideal) x0 x1 x2 x3 x4 x5 x6 x7 x8) x1 x2 x3 x9 := rfl

theorem ref_readout : val_main_v49 (F := Ideal) x0 x1 x2 x3 x4 x5 x6 x7 x8 x9 x10 x11
    = readout (val_main_v45 (F := Ideal) x0 x1 x2 x3 x4 x5 x6 x7 x8 x9) x10 x11 := by
  funext i
  rw [val_main_v49_apply, val_main_v48_apply, val_main_v47_apply, val_main_v46_apply]
  rfl

/-- The reference's result is the four layers and the two aggregations composed. -/
theorem ref_network : val_main_v49 (F := Ideal) x0 x1 x2 x3 x4 x5 x6 x7 x8 x9 x10 x11
    = readout (aggregate (proj2 (aggregate (proj1 (hidden x0 x4 x5) x6) x1 x2 x3 x7) x8) x1 x2 x3 x9) x10 x11 := by
  rw [ref_readout, ref_aggregate2, ref_proj2, ref_aggregate1, ref_proj1, ref_hidden]

end Cert.Layers

end
-- ==== Proof.KernelRun.lean ====
/-
  The idealized kernel's run with its RESULT named.  The program is four pipelined regions among
  stretches of host operations; the contents of every unscoped buffer at each boundary are a fold
  from the launch memory (W0 … W8).  Here the run is stated once more with the result buffer read
  at the last boundary: after every weakly fair execution the result array holds W8 at its own
  reference, and every argument array is as launched.
-/
import proofs.«130241_j25829933318528_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds
    the last boundary's contents at its reference, and each argument array is as launched. -/
theorem run : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Result

end
-- ==== Proof.Region0.lean ====
/-
  The first pallas_call: the feature matrix (50000 × 512) times a 512 × 512 weight matrix, plus a bias row, through the logistic function.
  The grid has 50 points; point t loads rows 1000·t … 1000·t + 999 of the node matrix, the whole weight matrix
  and the one bias row, and writes back the same rows of the result.  Entry (p, q) of the block it writes is the
  sum over k of x(p, k) · w(k, q) plus the bias at q, through the logistic function: the matrix unit's product into a zero
  accumulator is the plain sum on the extended reals, and narrowing the operands is the identity there.  A row of
  a product depends on the same row of the left factor only, so block t of the result is block t of the whole
  layer, and the fifty blocks tile the array.
-/
import proofs.«130241_j25829933318528_1_alg».proof.Proof.Gen.KernelIdeal.Frame
import proofs.«130241_j25829933318528_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin : (![0, 0] : Fin 2 → Nat) = fun _ => 0 := funext fun a => by fin_cases a <;> rfl

/-! ## The block the body stores, entry by entry -/

theorem lhs_row (i : S1000x512.Idx) (q : dot_S1000x512_S512x512_S1000x512_1_0_0_1_n_n.contr.Idx) : (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_col (i : S1000x512.Idx) (q : dot_S1000x512_S512x512_S1000x512_1_0_0_1_n_n.contr.Idx) : (dot_S1000x512_S512x512_S1000x512_1_0_0_1_n_n.lhsIdx i q 1).val = (q ⟨0, by decide⟩).val :=
  dot_S1000x512_S512x512_S1000x512_1_0_0_1_n_n.lhsIdx_val_of_single rfl i q
theorem rhs_row (i : S1000x512.Idx) (q : dot_S1000x512_S512x512_S1000x512_1_0_0_1_n_n.contr.Idx) : (dot_S1000x512_S512x512_S1000x512_1_0_0_1_n_n.rhsIdx i q 0).val = (q ⟨0, by decide⟩).val :=
  dot_S1000x512_S512x512_S1000x512_1_0_0_1_n_n.rhsIdx_val_of_single rfl i q
theorem rhs_col (i : S1000x512.Idx) (q : dot_S1000x512_S512x512_S1000x512_1_0_0_1_n_n.contr.Idx) : (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The matrix unit's product of a block of rows with the weight matrix, into zero, at (p, q). -/
theorem product_apply (y : FVec Ideal S1000x512 .bf16) (w : FVec Ideal S512x512 .bf16) (p : Fin 1000) (q : Fin 512) :
    matmul dot_S1000x512_S512x512_S1000x512_1_0_0_1_n_n none y w (constant S1000x512 .f32 0x00000000#32) (ix2 p q) = ∑ k : Fin 512, y (ix2 p k) * w (ix2 k q) := by
  show FloatOps.matmul dot_S1000x512_S512x512_S1000x512_1_0_0_1_n_n none y w (constant S1000x512 .f32 0x00000000#32) (ix2 p q) = _
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p q) ((contrEquiv1 dot_S1000x512_S512x512_S1000x512_1_0_0_1_n_n 512 rfl rfl).symm k) = ix2 p k := funext fun a => Fin.ext (by
    match a with
    | ⟨0, _⟩ => exact lhs_row _ _
    | ⟨1, _⟩ => exact (lhs_col _ _).trans hk)
  have er : dot_S1000x512_S512x512_S1000x512_1_0_0_1_n_n.rhsIdx (ix2 p q) ((contrEquiv1 dot_S1000x512_S512x512_S1000x512_1_0_0_1_n_n 512 rfl rfl).symm k) = ix2 k q := funext fun a => Fin.ext (by
    match a with
    | ⟨0, _⟩ => exact (rhs_row _ _).trans hk
    | ⟨1, _⟩ => exact rhs_col _ _)
  rw [el, er]

/-- The stored block at (p, q): the row-by-column sum plus the bias row at q, through the logistic function. -/
theorem stored_apply (x0 : FVec Ideal S1000x512 .f32) (x1 : FVec Ideal S512x512 .f32) (x2 : FVec Ideal S1x512 .f32) (p : Fin 1000) (q : Fin 512) :
    k0_pay1 (F := Ideal) x0 x1 x2 (ix2 p q) = FloatOps.logistic (FloatOps.addf (∑ k : Fin 512, x0 (ix2 p k) * x1 (ix2 k q)) (x2 (ix2 (0 : Fin 1) q))) := by
  unfold k0_pay1
  show FloatOps.logistic (FloatOps.addf (matmul dot_S1000x512_S512x512_S1000x512_1_0_0_1_n_n none (truncf .bf16 x0 bitsLt_bf16_f32) (truncf .bf16 x1 bitsLt_bf16_f32) (constant S1000x512 .f32 0x00000000#32) (ix2 p q))
      (broadcastTo S1000x512 (shapeCast S1x512 x2 shapeCasts_S1x512_S1x512) broadcasts_S1x512_S1000x512 (ix2 p q))) = _
  rw [product_apply, shapeCast_self, broadcastTo_1b_ab_apply]
  rfl

theorem combine (s s' b b' : EReal) (hs : s = s') (hb : b = b') :
    FloatOps.logistic (F := Ideal) (φ := .f32) (FloatOps.addf (F := Ideal) (φ := .f32) s b) = FloatOps.logistic (F := Ideal) (φ := .f32) (FloatOps.addf (F := Ideal) (φ := .f32) s' b') := by
  rw [hs, hb]

/-! ## The windows' index maps, decided over the grid -/

theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 49 :=
  (by decide +kernel : ∀ t : Fin grid0.N, _)

/-- Every block of rows is some point's. -/
theorem index_onto : ∀ q0 : Fin 50, ∃ t : Fin cfg0.N, win0_3.index t = ![q0.val, 0] :=
  (by decide +kernel : ∀ q0 : Fin 50, ∃ t : Fin grid0.N, win0_3.index t = ![q0.val, 0])

section
variable (V : (c : Dev nD) → (b : Ref sig .tc) → Buf (Elt Ideal) ((c : Thread nD τ).loc b))

/-- What point t writes back is block t of the whole layer of the arrays as the region finds them. -/
theorem flushed_eq (c : Dev nD) (b : FVec Ideal S512 .f32) (hb : ∀ q : Fin 512, V c main_v1 (ix2 (0 : Fin 1) q) = b (ix1 q)) (t : Fin cfg0.N) :
    (dat0 V c).flushed 3 t = ((cfg0.win 3).blk t).view.read (Elt Ideal) (Cert.Layers.hidden (V c main_arg0) (V c main_arg4) b) := by
  show (cfg0.win 3).cut (grid0.coords t) ((dat0 V c).after 3 t) = _
  rw [after0_3]
  unfold out0_3
  rw [View.canon_unit_zero origin]
  simp only [View.ld_unit_zero (S := S1000x512) origin, View.ld_unit_zero (S := S512x512) origin, View.ld_unit_zero (S := S1x512) origin]
  obtain ⟨e0, e1, e2, e3, e4, e5, e6, e7⟩ := index_facts t
  funext j
  obtain ⟨p, q, rfl⟩ : ∃ (p : Fin 1000) (q : Fin 512), j = ix2 p q := ⟨j 0, j 1, eq_ix2 j⟩
  refine (stored_apply _ _ _ p q).trans ?_
  show _ = Cert.Layers.hidden (V c main_arg0) (V c main_arg4) b (((cfg0.win 3).blk t).view.emb (ix2 p q))
  simp only [Cert.Layers.hidden]
  have hw : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 512 + 1 * q.val = q.val; omega
  have hq : ix1 q = Cert.ReferenceIdeal.Read.idx_main_v1 (Cert.ReferenceIdeal.Read.idx_main_v2 (((cfg0.win 3).blk t).view.emb (ix2 p q))) := by
    funext a; apply Fin.ext
    match a with
    | ⟨0, _⟩ => show q.val = win0_3.index t (1 : Fin 2) * 512 + 1 * q.val; omega
  refine combine _ _ _ _ ?_ ((congrArg (V c main_v1) hw).trans ((hb q).trans (congrArg b hq)))
  refine Finset.sum_congr rfl fun k _ => ?_
  have h0 : ((cfg0.win 0).blk t).view.emb (ix2 p k) = Cert.ReferenceIdeal.Read.lidx_main_v0 (((cfg0.win 3).blk t).view.emb (ix2 p q)) k := by
    funext a; apply Fin.ext
    match a with
    | ⟨0, _⟩ => show win0_0.index t (0 : Fin 2) * 1000 + 1 * p.val = win0_3.index t (0 : Fin 2) * 1000 + 1 * p.val; omega
    | ⟨1, _⟩ => show win0_0.index t (1 : Fin 2) * 512 + 1 * k.val = k.val; omega
  have h1 : ((cfg0.win 1).blk t).view.emb (ix2 k q) = Cert.ReferenceIdeal.Read.ridx_main_v0 (((cfg0.win 3).blk t).view.emb (ix2 p q)) k := by
    funext a; apply Fin.ext
    match a with
    | ⟨0, _⟩ => show win0_1.index t (0 : Fin 2) * 512 + 1 * k.val = k.val; omega
    | ⟨1, _⟩ => show win0_1.index t (1 : Fin 2) * 512 + 1 * q.val = win0_3.index t (1 : Fin 2) * 512 + 1 * q.val; omega
  have h0' : iblk0 V c 0 t (ix2 p k) = V c main_arg0 (Cert.ReferenceIdeal.Read.lidx_main_v0 (((cfg0.win 3).blk t).view.emb (ix2 p q)) k) := congrArg (V c main_arg0) h0
  have h1' : iblk0 V c 1 t (ix2 k q) = V c main_arg4 (Cert.ReferenceIdeal.Read.ridx_main_v0 (((cfg0.win 3).blk t).view.emb (ix2 p q)) k) := congrArg (V c main_arg4) h1
  rw [h0', h1']

/-- An index of the result array lies in point t's block iff each coordinate lies in the block's range on its axis. -/
theorem mem_block (t : Fin cfg0.N) (i : S50000x512.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v2).slice (win0_3.rect t)).set ↔ _
  rw [View.set_slice_whole, Rect.mem_set_unit]
  exact Iff.rfl

/-- The fifty blocks cover the result array: row r lies in the block of point r / 1000. -/
theorem covered (i : S50000x512.Idx) : ∃ t : Fin cfg0.N, (cfg0.win 3).flush t = true ∧ i ∈ ((cfg0.win 3).blk t).view.set := by
  have hi0 : (i 0).val < 50000 := (i 0).isLt
  have hi1 : (i 1).val < 512 := (i 1).isLt
  obtain ⟨t, ht⟩ := index_onto ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 512 ≤ (i 1).val ∧ (i 1).val < win0_3.index t (1 : Fin 2) * 512 + 512; omega

/-- THE RESULT ARRAY after the region is the whole layer of the arrays the region found. -/
theorem result_array (c : Dev nD) (b : FVec Ideal S512 .f32) (hb : ∀ q : Fin 512, V c main_v1 (ix2 (0 : Fin 1) q) = b (ix1 q)) :
    (dat0 V c).arrAt 3 cfg0.N = Cert.Layers.hidden (V c main_arg0) (V c main_arg4) b :=
  (dat0 V c).arrAt_eq_of_cover 3 _ (fun t _ => flushed_eq V c b hb t) covered

end

end Cert.KernelIdeal.Region0

end
-- ==== Proof.Region1.lean ====
/-
  The second pallas_call: the hidden node matrix (50000 × 512) times a 512 × 256 weight matrix, plus a bias row that the host fills with zeros.
  The grid has 50 points; point t loads rows 1000·t … 1000·t + 999 of the node matrix, the whole weight matrix
  and the one bias row, and writes back the same rows of the result.  Entry (p, q) of the block it writes is the
  sum over k of x(p, k) · w(k, q) plus the bias at q: the matrix unit's product into a zero
  accumulator is the plain sum on the extended reals, and narrowing the operands is the identity there.  A row of
  a product depends on the same row of the left factor only, so block t of the result is block t of the whole
  layer, and the fifty blocks tile the array.
-/
import proofs.«130241_j25829933318528_1_alg».proof.Proof.Gen.KernelIdeal.Frame
import proofs.«130241_j25829933318528_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin : (![0, 0] : Fin 2 → Nat) = fun _ => 0 := funext fun a => by fin_cases a <;> rfl

/-! ## The block the body stores, entry by entry -/

theorem lhs_row (i : S1000x256.Idx) (q : dot_S1000x512_S512x256_S1000x256_1_0_0_1_n_n.contr.Idx) : (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem lhs_col (i : S1000x256.Idx) (q : dot_S1000x512_S512x256_S1000x256_1_0_0_1_n_n.contr.Idx) : (dot_S1000x512_S512x256_S1000x256_1_0_0_1_n_n.lhsIdx i q 1).val = (q ⟨0, by decide⟩).val :=
  dot_S1000x512_S512x256_S1000x256_1_0_0_1_n_n.lhsIdx_val_of_single rfl i q
theorem rhs_row (i : S1000x256.Idx) (q : dot_S1000x512_S512x256_S1000x256_1_0_0_1_n_n.contr.Idx) : (dot_S1000x512_S512x256_S1000x256_1_0_0_1_n_n.rhsIdx i q 0).val = (q ⟨0, by decide⟩).val :=
  dot_S1000x512_S512x256_S1000x256_1_0_0_1_n_n.rhsIdx_val_of_single rfl i q
theorem rhs_col (i : S1000x256.Idx) (q : dot_S1000x512_S512x256_S1000x256_1_0_0_1_n_n.contr.Idx) : (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- The matrix unit's product of a block of rows with the weight matrix, into zero, at (p, q). -/
theorem product_apply (y : FVec Ideal S1000x512 .bf16) (w : FVec Ideal S512x256 .bf16) (p : Fin 1000) (q : Fin 256) :
    matmul dot_S1000x512_S512x256_S1000x256_1_0_0_1_n_n none y w (constant S1000x256 .f32 0x00000000#32) (ix2 p q) = ∑ k : Fin 512, y (ix2 p k) * w (ix2 k q) := by
  show FloatOps.matmul dot_S1000x512_S512x256_S1000x256_1_0_0_1_n_n none y w (constant S1000x256 .f32 0x00000000#32) (ix2 p q) = _
  rw [Ideal.matmul_constant_zero_apply, ← Equiv.sum_comp (contrEquiv1 dot_S1000x512_S512x256_S1000x256_1_0_0_1_n_n 512 rfl rfl).symm]
  refine Finset.sum_congr rfl fun k _ => ?_
  have hk := contrEquiv1_symm_val dot_S1000x512_S512x256_S1000x256_1_0_0_1_n_n 512 rfl rfl k
  have el : dot_S1000x512_S512x256_S1000x256_1_0_0_1_n_n.lhsIdx (ix2 p q) ((contrEquiv1 dot_S1000x512_S512x256_S1000x256_1_0_0_1_n_n 512 rfl rfl).symm k) = ix2 p k := funext fun a => Fin.ext (by
    match a with
    | ⟨0, _⟩ => exact lhs_row _ _
    | ⟨1, _⟩ => exact (lhs_col _ _).trans hk)
  have er : dot_S1000x512_S512x256_S1000x256_1_0_0_1_n_n.rhsIdx (ix2 p q) ((contrEquiv1 dot_S1000x512_S512x256_S1000x256_1_0_0_1_n_n 512 rfl rfl).symm k) = ix2 k q := funext fun a => Fin.ext (by
    match a with
    | ⟨0, _⟩ => exact (rhs_row _ _).trans hk
    | ⟨1, _⟩ => exact rhs_col _ _)
  rw [el, er]

/-- The stored block at (p, q): the row-by-column sum plus the bias row at q. -/
theorem stored_apply (x0 : FVec Ideal S1000x512 .f32) (x1 : FVec Ideal S512x256 .f32) (x2 : FVec Ideal S1x256 .f32) (p : Fin 1000) (q : Fin 256) :
    k1_pay1 (F := Ideal) x0 x1 x2 (ix2 p q) = FloatOps.addf (∑ k : Fin 512, x0 (ix2 p k) * x1 (ix2 k q)) (x2 (ix2 (0 : Fin 1) q)) := by
  unfold k1_pay1
  show FloatOps.addf (matmul dot_S1000x512_S512x256_S1000x256_1_0_0_1_n_n none (truncf .bf16 (shapeCast S1000x512 x0 shapeCasts_S1000x512_S1000x512) bitsLt_bf16_f32) (truncf .bf16 x1 bitsLt_bf16_f32) (constant S1000x256 .f32 0x00000000#32) (ix2 p q))
      (broadcastTo S1000x256 (shapeCast S1x256 x2 shapeCasts_S1x256_S1x256) broadcasts_S1x256_S1000x256 (ix2 p q)) = _
  rw [product_apply, shapeCast_self, shapeCast_self, broadcastTo_1b_ab_apply]
  rfl

/-- Adding the zero bias changes nothing. -/
theorem combine (s s' b : EReal) (hs : s = s') (hb : b = 0) : FloatOps.addf (F := Ideal) (φ := .f32) s b = s' := by
  rw [hs, hb]; exact add_zero _

/-! ## The windows' index maps, decided over the grid -/

theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 49 :=
  (by decide +kernel : ∀ t : Fin grid1.N, _)

/-- Every block of rows is some point's. -/
theorem index_onto : ∀ q0 : Fin 50, ∃ t : Fin cfg1.N, win1_3.index t = ![q0.val, 0] :=
  (by decide +kernel : ∀ q0 : Fin 50, ∃ t : Fin grid1.N, win1_3.index t = ![q0.val, 0])

section
variable (V : (c : Dev nD) → (b : Ref sig .tc) → Buf (Elt Ideal) ((c : Thread nD τ).loc b))

/-- What point t writes back is block t of the whole layer of the arrays as the region finds them. -/
theorem flushed_eq (c : Dev nD) (hb : ∀ j : S1x256.Idx, V c main_v3 j = (0 : EReal)) (t : Fin cfg1.N) :
    (dat1 V c).flushed 3 t = ((cfg1.win 3).blk t).view.read (Elt Ideal) (Cert.Layers.proj1 (V c main_v2) (V c main_arg6)) := by
  show (cfg1.win 3).cut (grid1.coords t) ((dat1 V c).after 3 t) = _
  rw [after1_3]
  unfold out1_3
  rw [View.canon_unit_zero origin]
  simp only [View.ld_unit_zero (S := S1000x512) origin, View.ld_unit_zero (S := S512x256) origin, View.ld_unit_zero (S := S1x256) origin]
  obtain ⟨e0, e1, e2, e3, e4, e5, e6, e7⟩ := index_facts t
  funext j
  obtain ⟨p, q, rfl⟩ : ∃ (p : Fin 1000) (q : Fin 256), j = ix2 p q := ⟨j 0, j 1, eq_ix2 j⟩
  refine (stored_apply _ _ _ p q).trans ?_
  show _ = Cert.Layers.proj1 (V c main_v2) (V c main_arg6) (((cfg1.win 3).blk t).view.emb (ix2 p q))
  simp only [Cert.Layers.proj1]
  refine combine _ _ _ ?_ (hb _)
  refine Finset.sum_congr rfl fun k _ => ?_
  have h0 : ((cfg1.win 0).blk t).view.emb (ix2 p k) = Cert.ReferenceIdeal.Read.lidx_main_v10 (((cfg1.win 3).blk t).view.emb (ix2 p q)) k := by
    funext a; apply Fin.ext
    match a with
    | ⟨0, _⟩ => show win1_0.index t (0 : Fin 2) * 1000 + 1 * p.val = win1_3.index t (0 : Fin 2) * 1000 + 1 * p.val; omega
    | ⟨1, _⟩ => show win1_0.index t (1 : Fin 2) * 512 + 1 * k.val = k.val; omega
  have h1 : ((cfg1.win 1).blk t).view.emb (ix2 k q) = Cert.ReferenceIdeal.Read.ridx_main_v10 (((cfg1.win 3).blk t).view.emb (ix2 p q)) k := by
    funext a; apply Fin.ext
    match a with
    | ⟨0, _⟩ => show win1_1.index t (0 : Fin 2) * 512 + 1 * k.val = k.val; omega
    | ⟨1, _⟩ => show win1_1.index t (1 : Fin 2) * 256 + 1 * q.val = win1_3.index t (1 : Fin 2) * 256 + 1 * q.val; omega
  have h0' : iblk1 V c 0 t (ix2 p k) = V c main_v2 (Cert.ReferenceIdeal.Read.lidx_main_v10 (((cfg1.win 3).blk t).view.emb (ix2 p q)) k) := congrArg (V c main_v2) h0
  have h1' : iblk1 V c 1 t (ix2 k q) = V c main_arg6 (Cert.ReferenceIdeal.Read.ridx_main_v10 (((cfg1.win 3).blk t).view.emb (ix2 p q)) k) := congrArg (V c main_arg6) h1
  rw [h0', h1']

/-- An index of the result array lies in point t's block iff each coordinate lies in the block's range on its axis. -/
theorem mem_block (t : Fin cfg1.N) (i : S50000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v4).slice (win1_3.rect t)).set ↔ _
  rw [View.set_slice_whole, Rect.mem_set_unit]
  exact Iff.rfl

/-- The fifty blocks cover the result array: row r lies in the block of point r / 1000. -/
theorem covered (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ := index_onto ⟨(i 0).val / 1000, by omega⟩
  have q0 : win1_3.index t (0 : Fin 2) = (i 0).val / 1000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 256 ≤ (i 1).val ∧ (i 1).val < win1_3.index t (1 : Fin 2) * 256 + 256; omega

/-- THE RESULT ARRAY after the region is the whole layer of the arrays the region found. -/
theorem result_array (c : Dev nD) (hb : ∀ j : S1x256.Idx, V c main_v3 j = (0 : EReal)) :
    (dat1 V c).arrAt 3 cfg1.N = Cert.Layers.proj1 (V c main_v2) (V c main_arg6) :=
  (dat1 V c).arrAt_eq_of_cover 3 _ (fun t _ => flushed_eq V c hb t) covered

end

end Cert.KernelIdeal.Region1

end
-- ==== Proof.Region2.lean ====
/-
  The third pallas_call: the aggregated node matrix (50000 × 256) times a 256 × 256 weight matrix, plus a bias row that the host fills with zeros.
  The grid has 50 points; point t loads rows 1000·t … 1000·t + 999 of the node matrix, the whole weight matrix
  and the one bias row, and writes back the same rows of the result.  Entry (p, q) of the block it writes is the
  sum over k of x(p, k) · w(k, q) plus the bias at q: the matrix unit's product into a zero
  accumulator is the plain sum on the extended reals, and narrowing the operands is the identity there.  A row of
  a product depends on the same row of the left factor only, so block t of the result is block t of the whole
  layer, and the fifty blocks tile the array.
-/
import proofs.«130241_j25829933318528_1_alg».proof.Proof.Gen.KernelIdeal.Frame
import proofs.«130241_j25829933318528_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin : (![0, 0] : Fin 2 → Nat) = fun _ => 0 := funext fun a => by fin_cases a <;> rfl

/-! ## The block the body stores, entry by entry -/

theorem lhs_row (i : S1000x256.Idx) (q : dot_S1000x256_S256x256_S1000x256_1_0_0_1_n_n.contr.Idx) : (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_col (i : S1000x256.Idx) (q : dot_S1000x256_S256x256_S1000x256_1_0_0_1_n_n.contr.Idx) : (dot_S1000x256_S256x256_S1000x256_1_0_0_1_n_n.lhsIdx i q 1).val = (q ⟨0, by decide⟩).val :=
  dot_S1000x256_S256x256_S1000x256_1_0_0_1_n_n.lhsIdx_val_of_single rfl i q
theorem rhs_row (i : S1000x256.Idx) (q : dot_S1000x256_S256x256_S1000x256_1_0_0_1_n_n.contr.Idx) : (dot_S1000x256_S256x256_S1000x256_1_0_0_1_n_n.rhsIdx i q 0).val = (q ⟨0, by decide⟩).val :=
  dot_S1000x256_S256x256_S1000x256_1_0_0_1_n_n.rhsIdx_val_of_single rfl i q
theorem rhs_col (i : S1000x256.Idx) (q : dot_S1000x256_S256x256_S1000x256_1_0_0_1_n_n.contr.Idx) : (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The matrix unit's product of a block of rows with the weight matrix, into zero, at (p, q). -/
theorem product_apply (y : FVec Ideal S1000x256 .bf16) (w : FVec Ideal S256x256 .bf16) (p : Fin 1000) (q : Fin 256) :
    matmul dot_S1000x256_S256x256_S1000x256_1_0_0_1_n_n none y w (constant S1000x256 .f32 0x00000000#32) (ix2 p q) = ∑ k : Fin 256, y (ix2 p k) * w (ix2 k q) := by
  show FloatOps.matmul dot_S1000x256_S256x256_S1000x256_1_0_0_1_n_n none y w (constant S1000x256 .f32 0x00000000#32) (ix2 p q) = _
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k := funext fun a => Fin.ext (by
    match a with
    | ⟨0, _⟩ => exact lhs_row _ _
    | ⟨1, _⟩ => exact (lhs_col _ _).trans hk)
  have er : dot_S1000x256_S256x256_S1000x256_1_0_0_1_n_n.rhsIdx (ix2 p q) ((contrEquiv1 dot_S1000x256_S256x256_S1000x256_1_0_0_1_n_n 256 rfl rfl).symm k) = ix2 k q := funext fun a => Fin.ext (by
    match a with
    | ⟨0, _⟩ => exact (rhs_row _ _).trans hk
    | ⟨1, _⟩ => exact rhs_col _ _)
  rw [el, er]

/-- The stored block at (p, q): the row-by-column sum plus the bias row at q. -/
theorem stored_apply (x0 : FVec Ideal S1000x256 .f32) (x1 : FVec Ideal S256x256 .f32) (x2 : FVec Ideal S1x256 .f32) (p : Fin 1000) (q : Fin 256) :
    k2_pay1 (F := Ideal) x0 x1 x2 (ix2 p q) = FloatOps.addf (∑ k : Fin 256, x0 (ix2 p k) * x1 (ix2 k q)) (x2 (ix2 (0 : Fin 1) q)) := by
  unfold k2_pay1
  show FloatOps.addf (matmul dot_S1000x256_S256x256_S1000x256_1_0_0_1_n_n none (truncf .bf16 (shapeCast S1000x256 x0 shapeCasts_S1000x256_S1000x256) bitsLt_bf16_f32) (truncf .bf16 x1 bitsLt_bf16_f32) (constant S1000x256 .f32 0x00000000#32) (ix2 p q))
      (broadcastTo S1000x256 (shapeCast S1x256 x2 shapeCasts_S1x256_S1x256) broadcasts_S1x256_S1000x256 (ix2 p q)) = _
  rw [product_apply, shapeCast_self, shapeCast_self, broadcastTo_1b_ab_apply]
  rfl

/-- Adding the zero bias changes nothing. -/
theorem combine (s s' b : EReal) (hs : s = s') (hb : b = 0) : FloatOps.addf (F := Ideal) (φ := .f32) s b = s' := by
  rw [hs, hb]; exact add_zero _

/-! ## The windows' index maps, decided over the grid -/

theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 49 :=
  (by decide +kernel : ∀ t : Fin grid2.N, _)

/-- Every block of rows is some point's. -/
theorem index_onto : ∀ q0 : Fin 50, ∃ t : Fin cfg2.N, win2_3.index t = ![q0.val, 0] :=
  (by decide +kernel : ∀ q0 : Fin 50, ∃ t : Fin grid2.N, win2_3.index t = ![q0.val, 0])

section
variable (V : (c : Dev nD) → (b : Ref sig .tc) → Buf (Elt Ideal) ((c : Thread nD τ).loc b))

/-- What point t writes back is block t of the whole layer of the arrays as the region finds them. -/
theorem flushed_eq (c : Dev nD) (hb : ∀ j : S1x256.Idx, V c main_v23 j = (0 : EReal)) (t : Fin cfg2.N) :
    (dat2 V c).flushed 3 t = ((cfg2.win 3).blk t).view.read (Elt Ideal) (Cert.Layers.proj2 (V c main_v22) (V c main_arg8)) := by
  show (cfg2.win 3).cut (grid2.coords t) ((dat2 V c).after 3 t) = _
  rw [after2_3]
  unfold out2_3
  rw [View.canon_unit_zero origin]
  simp only [View.ld_unit_zero (S := S1000x256) origin, View.ld_unit_zero (S := S256x256) origin, View.ld_unit_zero (S := S1x256) origin]
  obtain ⟨e0, e1, e2, e3, e4, e5, e6, e7⟩ := index_facts t
  funext j
  obtain ⟨p, q, rfl⟩ : ∃ (p : Fin 1000) (q : Fin 256), j = ix2 p q := ⟨j 0, j 1, eq_ix2 j⟩
  refine (stored_apply _ _ _ p q).trans ?_
  show _ = Cert.Layers.proj2 (V c main_v22) (V c main_arg8) (((cfg2.win 3).blk t).view.emb (ix2 p q))
  simp only [Cert.Layers.proj2]
  refine combine _ _ _ ?_ (hb _)
  refine Finset.sum_congr rfl fun k _ => ?_
  have h0 : ((cfg2.win 0).blk t).view.emb (ix2 p k) = Cert.ReferenceIdeal.Read.lidx_main_v28 (((cfg2.win 3).blk t).view.emb (ix2 p q)) k := by
    funext a; apply Fin.ext
    match a with
    | ⟨0, _⟩ => show win2_0.index t (0 : Fin 2) * 1000 + 1 * p.val = win2_3.index t (0 : Fin 2) * 1000 + 1 * p.val; omega
    | ⟨1, _⟩ => show win2_0.index t (1 : Fin 2) * 256 + 1 * k.val = k.val; omega
  have h1 : ((cfg2.win 1).blk t).view.emb (ix2 k q) = Cert.ReferenceIdeal.Read.ridx_main_v28 (((cfg2.win 3).blk t).view.emb (ix2 p q)) k := by
    funext a; apply Fin.ext
    match a with
    | ⟨0, _⟩ => show win2_1.index t (0 : Fin 2) * 256 + 1 * k.val = k.val; omega
    | ⟨1, _⟩ => show win2_1.index t (1 : Fin 2) * 256 + 1 * q.val = win2_3.index t (1 : Fin 2) * 256 + 1 * q.val; omega
  have h0' : iblk2 V c 0 t (ix2 p k) = V c main_v22 (Cert.ReferenceIdeal.Read.lidx_main_v28 (((cfg2.win 3).blk t).view.emb (ix2 p q)) k) := congrArg (V c main_v22) h0
  have h1' : iblk2 V c 1 t (ix2 k q) = V c main_arg8 (Cert.ReferenceIdeal.Read.ridx_main_v28 (((cfg2.win 3).blk t).view.emb (ix2 p q)) k) := congrArg (V c main_arg8) h1
  rw [h0', h1']

/-- An index of the result array lies in point t's block iff each coordinate lies in the block's range on its axis. -/
theorem mem_block (t : Fin cfg2.N) (i : S50000x256.Idx) :
    i ∈ ((cfg2.win 3).blk t).view.set ↔ ∀ a : Fin 2, win2_3.index t a * S1000x256.size a ≤ (i a).val ∧ (i a).val < win2_3.index t a * S1000x256.size a + S1000x256.size a := by
  show i ∈ ((View.whole main_v24).slice (win2_3.rect t)).set ↔ _
  rw [View.set_slice_whole, Rect.mem_set_unit]
  exact Iff.rfl

/-- The fifty blocks cover the result array: row r lies in the block of point r / 1000. -/
theorem covered (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ := index_onto ⟨(i 0).val / 1000, by omega⟩
  have q0 : win2_3.index t (0 : Fin 2) = (i 0).val / 1000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 256 ≤ (i 1).val ∧ (i 1).val < win2_3.index t (1 : Fin 2) * 256 + 256; omega

/-- THE RESULT ARRAY after the region is the whole layer of the arrays the region found. -/
theorem result_array (c : Dev nD) (hb : ∀ j : S1x256.Idx, V c main_v23 j = (0 : EReal)) :
    (dat2 V c).arrAt 3 cfg2.N = Cert.Layers.proj2 (V c main_v22) (V c main_arg8) :=
  (dat2 V c).arrAt_eq_of_cover 3 _ (fun t _ => flushed_eq V c hb t) covered

end

end Cert.KernelIdeal.Region2

end
-- ==== Proof.Region3.lean ====
/-
  The fourth pallas_call: the aggregated node matrix (50000 × 256) times a 256 × 128 weight matrix, plus a bias row.
  The grid has 50 points; point t loads rows 1000·t … 1000·t + 999 of the node matrix, the whole weight matrix
  and the one bias row, and writes back the same rows of the result.  Entry (p, q) of the block it writes is the
  sum over k of x(p, k) · w(k, q) plus the bias at q: the matrix unit's product into a zero
  accumulator is the plain sum on the extended reals, and narrowing the operands is the identity there.  A row of
  a product depends on the same row of the left factor only, so block t of the result is block t of the whole
  layer, and the fifty blocks tile the array.
-/
import proofs.«130241_j25829933318528_1_alg».proof.Proof.Gen.KernelIdeal.Frame
import proofs.«130241_j25829933318528_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin : (![0, 0] : Fin 2 → Nat) = fun _ => 0 := funext fun a => by fin_cases a <;> rfl

/-! ## The block the body stores, entry by entry -/

theorem lhs_row (i : S1000x128.Idx) (q : dot_S1000x256_S256x128_S1000x128_1_0_0_1_n_n.contr.Idx) : (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem lhs_col (i : S1000x128.Idx) (q : dot_S1000x256_S256x128_S1000x128_1_0_0_1_n_n.contr.Idx) : (dot_S1000x256_S256x128_S1000x128_1_0_0_1_n_n.lhsIdx i q 1).val = (q ⟨0, by decide⟩).val :=
  dot_S1000x256_S256x128_S1000x128_1_0_0_1_n_n.lhsIdx_val_of_single rfl i q
theorem rhs_row (i : S1000x128.Idx) (q : dot_S1000x256_S256x128_S1000x128_1_0_0_1_n_n.contr.Idx) : (dot_S1000x256_S256x128_S1000x128_1_0_0_1_n_n.rhsIdx i q 0).val = (q ⟨0, by decide⟩).val :=
  dot_S1000x256_S256x128_S1000x128_1_0_0_1_n_n.rhsIdx_val_of_single rfl i q
theorem rhs_col (i : S1000x128.Idx) (q : dot_S1000x256_S256x128_S1000x128_1_0_0_1_n_n.contr.Idx) : (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The matrix unit's product of a block of rows with the weight matrix, into zero, at (p, q). -/
theorem product_apply (y : FVec Ideal S1000x256 .bf16) (w : FVec Ideal S256x128 .bf16) (p : Fin 1000) (q : Fin 128) :
    matmul dot_S1000x256_S256x128_S1000x128_1_0_0_1_n_n none y w (constant S1000x128 .f32 0x00000000#32) (ix2 p q) = ∑ k : Fin 256, y (ix2 p k) * w (ix2 k q) := by
  show FloatOps.matmul dot_S1000x256_S256x128_S1000x128_1_0_0_1_n_n none y w (constant S1000x128 .f32 0x00000000#32) (ix2 p q) = _
  rw [Ideal.matmul_constant_zero_apply, ← Equiv.sum_comp (contrEquiv1 dot_S1000x256_S256x128_S1000x128_1_0_0_1_n_n 256 rfl rfl).symm]
  refine Finset.sum_congr rfl fun k _ => ?_
  have hk := contrEquiv1_symm_val dot_S1000x256_S256x128_S1000x128_1_0_0_1_n_n 256 rfl rfl k
  have el : dot_S1000x256_S256x128_S1000x128_1_0_0_1_n_n.lhsIdx (ix2 p q) ((contrEquiv1 dot_S1000x256_S256x128_S1000x128_1_0_0_1_n_n 256 rfl rfl).symm k) = ix2 p k := funext fun a => Fin.ext (by
    match a with
    | ⟨0, _⟩ => exact lhs_row _ _
    | ⟨1, _⟩ => exact (lhs_col _ _).trans hk)
  have er : dot_S1000x256_S256x128_S1000x128_1_0_0_1_n_n.rhsIdx (ix2 p q) ((contrEquiv1 dot_S1000x256_S256x128_S1000x128_1_0_0_1_n_n 256 rfl rfl).symm k) = ix2 k q := funext fun a => Fin.ext (by
    match a with
    | ⟨0, _⟩ => exact (rhs_row _ _).trans hk
    | ⟨1, _⟩ => exact rhs_col _ _)
  rw [el, er]

/-- The stored block at (p, q): the row-by-column sum plus the bias row at q. -/
theorem stored_apply (x0 : FVec Ideal S1000x256 .f32) (x1 : FVec Ideal S256x128 .f32) (x2 : FVec Ideal S1x128 .f32) (p : Fin 1000) (q : Fin 128) :
    k3_pay1 (F := Ideal) x0 x1 x2 (ix2 p q) = FloatOps.addf (∑ k : Fin 256, x0 (ix2 p k) * x1 (ix2 k q)) (x2 (ix2 (0 : Fin 1) q)) := by
  unfold k3_pay1
  show FloatOps.addf (matmul dot_S1000x256_S256x128_S1000x128_1_0_0_1_n_n none (truncf .bf16 (shapeCast S1000x256 x0 shapeCasts_S1000x256_S1000x256) bitsLt_bf16_f32) (truncf .bf16 x1 bitsLt_bf16_f32) (constant S1000x128 .f32 0x00000000#32) (ix2 p q))
      (broadcastTo S1000x128 (shapeCast S1x128 x2 shapeCasts_S1x128_S1x128) broadcasts_S1x128_S1000x128 (ix2 p q)) = _
  rw [product_apply, shapeCast_self, shapeCast_self, broadcastTo_1b_ab_apply]
  rfl

theorem combine (s s' b b' : EReal) (hs : s = s') (hb : b = b') :
    (FloatOps.addf (F := Ideal) (φ := .f32) s b) = (FloatOps.addf (F := Ideal) (φ := .f32) s' b') := by
  rw [hs, hb]

/-! ## The windows' index maps, decided over the grid -/

theorem index_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 49 :=
  (by decide +kernel : ∀ t : Fin grid3.N, _)

/-- Every block of rows is some point's. -/
theorem index_onto : ∀ q0 : Fin 50, ∃ t : Fin cfg3.N, win3_3.index t = ![q0.val, 0] :=
  (by decide +kernel : ∀ q0 : Fin 50, ∃ t : Fin grid3.N, win3_3.index t = ![q0.val, 0])

section
variable (V : (c : Dev nD) → (b : Ref sig .tc) → Buf (Elt Ideal) ((c : Thread nD τ).loc b))

/-- What point t writes back is block t of the whole layer of the arrays as the region finds them. -/
theorem flushed_eq (c : Dev nD) (b : FVec Ideal S128 .f32) (hb : ∀ q : Fin 128, V c main_v43 (ix2 (0 : Fin 1) q) = b (ix1 q)) (t : Fin cfg3.N) :
    (dat3 V c).flushed 3 t = ((cfg3.win 3).blk t).view.read (Elt Ideal) (Cert.Layers.readout (V c main_v42) (V c main_arg10) b) := by
  show (cfg3.win 3).cut (grid3.coords t) ((dat3 V c).after 3 t) = _
  rw [after3_3]
  unfold out3_3
  rw [View.canon_unit_zero origin]
  simp only [View.ld_unit_zero (S := S1000x256) origin, View.ld_unit_zero (S := S256x128) origin, View.ld_unit_zero (S := S1x128) origin]
  obtain ⟨e0, e1, e2, e3, e4, e5, e6, e7⟩ := index_facts t
  funext j
  obtain ⟨p, q, rfl⟩ : ∃ (p : Fin 1000) (q : Fin 128), j = ix2 p q := ⟨j 0, j 1, eq_ix2 j⟩
  refine (stored_apply _ _ _ p q).trans ?_
  show _ = Cert.Layers.readout (V c main_v42) (V c main_arg10) b (((cfg3.win 3).blk t).view.emb (ix2 p q))
  simp only [Cert.Layers.readout]
  have hw : ((cfg3.win 2).blk t).view.emb (ix2 (0 : Fin 1) q) = ix2 (0 : Fin 1) q := by
    funext a; apply Fin.ext
    match a with
    | ⟨0, _⟩ => show win3_2.index t (0 : Fin 2) * 1 + 1 * 0 = 0; omega
    | ⟨1, _⟩ => show win3_2.index t (1 : Fin 2) * 128 + 1 * q.val = q.val; omega
  have hq : ix1 q = Cert.ReferenceIdeal.Read.idx_main_v47 (Cert.ReferenceIdeal.Read.idx_main_v48 (((cfg3.win 3).blk t).view.emb (ix2 p q))) := by
    funext a; apply Fin.ext
    match a with
    | ⟨0, _⟩ => show q.val = win3_3.index t (1 : Fin 2) * 128 + 1 * q.val; omega
  refine combine _ _ _ _ ?_ ((congrArg (V c main_v43) hw).trans ((hb q).trans (congrArg b hq)))
  refine Finset.sum_congr rfl fun k _ => ?_
  have h0 : ((cfg3.win 0).blk t).view.emb (ix2 p k) = Cert.ReferenceIdeal.Read.lidx_main_v46 (((cfg3.win 3).blk t).view.emb (ix2 p q)) k := by
    funext a; apply Fin.ext
    match a with
    | ⟨0, _⟩ => show win3_0.index t (0 : Fin 2) * 1000 + 1 * p.val = win3_3.index t (0 : Fin 2) * 1000 + 1 * p.val; omega
    | ⟨1, _⟩ => show win3_0.index t (1 : Fin 2) * 256 + 1 * k.val = k.val; omega
  have h1 : ((cfg3.win 1).blk t).view.emb (ix2 k q) = Cert.ReferenceIdeal.Read.ridx_main_v46 (((cfg3.win 3).blk t).view.emb (ix2 p q)) k := by
    funext a; apply Fin.ext
    match a with
    | ⟨0, _⟩ => show win3_1.index t (0 : Fin 2) * 256 + 1 * k.val = k.val; omega
    | ⟨1, _⟩ => show win3_1.index t (1 : Fin 2) * 128 + 1 * q.val = win3_3.index t (1 : Fin 2) * 128 + 1 * q.val; omega
  have h0' : iblk3 V c 0 t (ix2 p k) = V c main_v42 (Cert.ReferenceIdeal.Read.lidx_main_v46 (((cfg3.win 3).blk t).view.emb (ix2 p q)) k) := congrArg (V c main_v42) h0
  have h1' : iblk3 V c 1 t (ix2 k q) = V c main_arg10 (Cert.ReferenceIdeal.Read.ridx_main_v46 (((cfg3.win 3).blk t).view.emb (ix2 p q)) k) := congrArg (V c main_arg10) h1
  rw [h0', h1']

/-- An index of the result array lies in point t's block iff each coordinate lies in the block's range on its axis. -/
theorem mem_block (t : Fin cfg3.N) (i : S50000x128.Idx) :
    i ∈ ((cfg3.win 3).blk t).view.set ↔ ∀ a : Fin 2, win3_3.index t a * S1000x128.size a ≤ (i a).val ∧ (i a).val < win3_3.index t a * S1000x128.size a + S1000x128.size a := by
  show i ∈ ((View.whole main_v44).slice (win3_3.rect t)).set ↔ _
  rw [View.set_slice_whole, Rect.mem_set_unit]
  exact Iff.rfl

/-- The fifty blocks cover the result array: row r lies in the block of point r / 1000. -/
theorem covered (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := index_onto ⟨(i 0).val / 1000, by omega⟩
  have q0 : win3_3.index t (0 : Fin 2) = (i 0).val / 1000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 128 ≤ (i 1).val ∧ (i 1).val < win3_3.index t (1 : Fin 2) * 128 + 128; omega

/-- THE RESULT ARRAY after the region is the whole layer of the arrays the region found. -/
theorem result_array (c : Dev nD) (b : FVec Ideal S128 .f32) (hb : ∀ q : Fin 128, V c main_v43 (ix2 (0 : Fin 1) q) = b (ix1 q)) :
    (dat3 V c).arrAt 3 cfg3.N = Cert.Layers.readout (V c main_v42) (V c main_arg10) b :=
  (dat3 V c).arrAt_eq_of_cover 3 _ (fun t _ => flushed_eq V c b hb t) covered

end

end Cert.KernelIdeal.Region3

end
-- ==== Proof.Boundary.lean ====
/-
  The argument arrays at the boundaries between the program's segments.  No host operation writes an argument
  and no region has one as its result, so at the exit of each of the first three regions every argument still
  to be read holds what it held at launch; and the 256-long vector of zeros that the host builds first, which
  two regions take (reshaped to one row) as their bias, is still that vector.
-/
import proofs.«130241_j25829933318528_1_alg».proof.Proof.Gen.KernelIdeal.Frame
import Idealize.ShloMosaic.Lib.StableHlo.Run
import Idealize.ShloMosaic.PureOps.Ideal

set_option maxRecDepth 16384

noncomputable section

namespace Cert.KernelIdeal.Boundary

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## At the first region's exit -/

theorem W2_main_arg1 : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
  all_goals rfl
theorem W2_main_arg2 : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
  all_goals rfl
theorem W2_main_arg3 : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
  all_goals rfl
theorem W2_main_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
  all_goals rfl
theorem W2_main_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results
  all_goals rfl
theorem W2_main_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results
  all_goals rfl
theorem W2_main_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results
  all_goals rfl
theorem W2_main_arg10 : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results
  all_goals rfl
theorem W2_main_arg11 : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results
  all_goals rfl

/-- The vector of zeros, as the host wrote it before the first region. -/
theorem W2_main_v0 : W2 m ρ c (Proc.devRef .tc main_v0)
    = broadcastInDim S256 ![] bcast_S_S256 (constant (F := Ideal) S_ .f32 0x00000000#32) := by
  rw [W2_of_ne m ρ c main_v0 (by decide)]
  show StableHlo.after hostOps0 (W0 m ρ c) (Proc.devRef .tc main_v0) = _
  after_results
  all_goals rfl

/-! ## At the second region's exit -/

theorem W4_main_arg1 : W4 m ρ c (Proc.devRef .tc main_arg1) = m ((c : Thread nD τ).loc main_arg1) := by
  rw [W4_of_ne m ρ c main_arg1 (by decide)]
  show StableHlo.after hostOps1 (W2 m ρ c) (Proc.devRef .tc main_arg1) = _
  after_results
  exact W2_main_arg1 m ρ c
theorem W4_main_arg2 : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  after_results
  exact W2_main_arg2 m ρ c
theorem W4_main_arg3 : W4 m ρ c (Proc.devRef .tc main_arg3) = m ((c : Thread nD τ).loc main_arg3) := by
  rw [W4_of_ne m ρ c main_arg3 (by decide)]
  show StableHlo.after hostOps1 (W2 m ρ c) (Proc.devRef .tc main_arg3) = _
  after_results
  exact W2_main_arg3 m ρ c
theorem W4_main_arg7 : W4 m ρ c (Proc.devRef .tc main_arg7) = m ((c : Thread nD τ).loc main_arg7) := by
  rw [W4_of_ne m ρ c main_arg7 (by decide)]
  show StableHlo.after hostOps1 (W2 m ρ c) (Proc.devRef .tc main_arg7) = _
  after_results
  exact W2_main_arg7 m ρ c
theorem W4_main_arg8 : W4 m ρ c (Proc.devRef .tc main_arg8) = m ((c : Thread nD τ).loc main_arg8) := by
  rw [W4_of_ne m ρ c main_arg8 (by decide)]
  show StableHlo.after hostOps1 (W2 m ρ c) (Proc.devRef .tc main_arg8) = _
  after_results
  exact W2_main_arg8 m ρ c
theorem W4_main_arg9 : W4 m ρ c (Proc.devRef .tc main_arg9) = m ((c : Thread nD τ).loc main_arg9) := by
  rw [W4_of_ne m ρ c main_arg9 (by decide)]
  show StableHlo.after hostOps1 (W2 m ρ c) (Proc.devRef .tc main_arg9) = _
  after_results
  exact W2_main_arg9 m ρ c
theorem W4_main_arg10 : W4 m ρ c (Proc.devRef .tc main_arg10) = m ((c : Thread nD τ).loc main_arg10) := by
  rw [W4_of_ne m ρ c main_arg10 (by decide)]
  show StableHlo.after hostOps1 (W2 m ρ c) (Proc.devRef .tc main_arg10) = _
  after_results
  exact W2_main_arg10 m ρ c
theorem W4_main_arg11 : W4 m ρ c (Proc.devRef .tc main_arg11) = m ((c : Thread nD τ).loc main_arg11) := by
  rw [W4_of_ne m ρ c main_arg11 (by decide)]
  show StableHlo.after hostOps1 (W2 m ρ c) (Proc.devRef .tc main_arg11) = _
  after_results
  exact W2_main_arg11 m ρ c

theorem W4_main_v0 : W4 m ρ c (Proc.devRef .tc main_v0)
    = broadcastInDim S256 ![] bcast_S_S256 (constant (F := Ideal) S_ .f32 0x00000000#32) := by
  rw [W4_of_ne m ρ c main_v0 (by decide)]
  show StableHlo.after hostOps1 (W2 m ρ c) (Proc.devRef .tc main_v0) = _
  after_results
  exact W2_main_v0 m ρ c

/-! ## At the third region's exit -/

theorem W6_main_arg1 : W6 m ρ c (Proc.devRef .tc main_arg1) = m ((c : Thread nD τ).loc main_arg1) := by
  rw [W6_of_ne m ρ c main_arg1 (by decide)]
  show StableHlo.after hostOps2 (W4 m ρ c) (Proc.devRef .tc main_arg1) = _
  after_results
  exact W4_main_arg1 m ρ c
theorem W6_main_arg2 : W6 m ρ c (Proc.devRef .tc main_arg2) = m ((c : Thread nD τ).loc main_arg2) := by
  rw [W6_of_ne m ρ c main_arg2 (by decide)]
  show StableHlo.after hostOps2 (W4 m ρ c) (Proc.devRef .tc main_arg2) = _
  after_results
  exact W4_main_arg2 m ρ c
theorem W6_main_arg3 : W6 m ρ c (Proc.devRef .tc main_arg3) = m ((c : Thread nD τ).loc main_arg3) := by
  rw [W6_of_ne m ρ c main_arg3 (by decide)]
  show StableHlo.after hostOps2 (W4 m ρ c) (Proc.devRef .tc main_arg3) = _
  after_results
  exact W4_main_arg3 m ρ c
theorem W6_main_arg9 : W6 m ρ c (Proc.devRef .tc main_arg9) = m ((c : Thread nD τ).loc main_arg9) := by
  rw [W6_of_ne m ρ c main_arg9 (by decide)]
  show StableHlo.after hostOps2 (W4 m ρ c) (Proc.devRef .tc main_arg9) = _
  after_results
  exact W4_main_arg9 m ρ c
theorem W6_main_arg10 : W6 m ρ c (Proc.devRef .tc main_arg10) = m ((c : Thread nD τ).loc main_arg10) := by
  rw [W6_of_ne m ρ c main_arg10 (by decide)]
  show StableHlo.after hostOps2 (W4 m ρ c) (Proc.devRef .tc main_arg10) = _
  after_results
  exact W4_main_arg10 m ρ c
theorem W6_main_arg11 : W6 m ρ c (Proc.devRef .tc main_arg11) = m ((c : Thread nD τ).loc main_arg11) := by
  rw [W6_of_ne m ρ c main_arg11 (by decide)]
  show StableHlo.after hostOps2 (W4 m ρ c) (Proc.devRef .tc main_arg11) = _
  after_results
  exact W4_main_arg11 m ρ c

end Cert.KernelIdeal.Boundary

end
-- ==== Proof.Network.lean ====
/-
  The idealized kernel's result as one function of the argument arrays.

  The program runs four dense layers as pipelined regions and, between them, two stretches of host operations
  that aggregate along the edges.  Walking the boundary contents forward: the first region leaves the hidden
  matrix (features times weights, plus bias, through the logistic function); the second its product with the
  next weight matrix (its bias row is the host's vector of zeros); the host aggregates that along the edges, adds
  a bias row and clamps at zero; the third region multiplies again (zero bias), the host aggregates again, and
  the last region multiplies and adds the last bias row.  Each region's array is the whole layer of what it
  found (the region modules); each host stretch is read back operation by operation and is the aggregation the
  reference applies, of the same edge arrays.
-/
import proofs.«130241_j25829933318528_1_alg».proof.Proof.Region0
import proofs.«130241_j25829933318528_1_alg».proof.Proof.Region1
import proofs.«130241_j25829933318528_1_alg».proof.Proof.Region2
import proofs.«130241_j25829933318528_1_alg».proof.Proof.Region3
import proofs.«130241_j25829933318528_1_alg».proof.Proof.Boundary

set_option maxRecDepth 16384

noncomputable section

namespace Cert.KernelIdeal.Network

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-! ## The first region: what it finds, and the hidden matrix it leaves -/

theorem V1_main_arg0 : V1 m ρ c main_arg0 = m ((c : Thread nD τ).loc main_arg0) := by
  show StableHlo.after hostOps0 (W0 m ρ c) (Proc.devRef .tc main_arg0) = _
  after_results
  all_goals rfl

theorem V1_main_arg4 : V1 m ρ c main_arg4 = m ((c : Thread nD τ).loc main_arg4) := by
  show StableHlo.after hostOps0 (W0 m ρ c) (Proc.devRef .tc main_arg4) = _
  after_results
  all_goals rfl

/-- The bias row the first region loads is the bias vector laid out as one row. -/
theorem V1_bias (q : Fin 512) : V1 m ρ c main_v1 (ix2 (0 : Fin 1) q) = m ((c : Thread nD τ).loc main_arg5) (ix1 q) := by
  have e : V1 m ρ c main_v1 = shapeCast S1x512 (m ((c : Thread nD τ).loc main_arg5)) shapeCasts_S512_S1x512 := by
    show StableHlo.after hostOps0 (W0 m ρ c) (Proc.devRef .tc main_v1) = _
    after_results
    all_goals rfl
  rw [e]
  exact shapeCast_a_1a_apply _ _ 0 q

theorem hidden_array : W2 m ρ c (Proc.devRef .tc main_v2) = Cert.Layers.hidden (m ((c : Thread nD τ).loc main_arg0)) (m ((c : Thread nD τ).loc main_arg4)) (m ((c : Thread nD τ).loc main_arg5)) := by
  refine (W2_arr m ρ c 3).trans ?_
  refine (Region0.result_array (V1 m ρ) c (m ((c : Thread nD τ).loc main_arg5)) (V1_bias m ρ c)).trans ?_
  rw [V1_main_arg0, V1_main_arg4]

/-! ## The second region -/

theorem V3_main_v2 : V3 m ρ c main_v2 = W2 m ρ c (Proc.devRef .tc main_v2) := by
  show StableHlo.after hostOps1 (W2 m ρ c) (Proc.devRef .tc main_v2) = _
  after_results
  all_goals rfl

theorem V3_main_arg6 : V3 m ρ c main_arg6 = m ((c : Thread nD τ).loc main_arg6) := by
  show StableHlo.after hostOps1 (W2 m ρ c) (Proc.devRef .tc main_arg6) = _
  after_results
  exact Boundary.W2_main_arg6 m ρ c

/-- Its bias row is the host's vector of zeros laid out as one row: every entry is zero. -/
theorem V3_zero (j : S1x256.Idx) : V3 m ρ c main_v3 j = (0 : EReal) := by
  have e : V3 m ρ c main_v3 = shapeCast S1x256 (W2 m ρ c (Proc.devRef .tc main_v0)) shapeCasts_S256_S1x256 := by
    show StableHlo.after hostOps1 (W2 m ρ c) (Proc.devRef .tc main_v3) = _
    after_results
    all_goals rfl
  rw [e, Boundary.W2_main_v0]
  show Ideal.ofBits .f32 0x00000000#32 = 0
  exact Ideal.ofBits_zero_f32

theorem proj1_array : W4 m ρ c (Proc.devRef .tc main_v4) = Cert.Layers.proj1 (Cert.Layers.hidden (m ((c : Thread nD τ).loc main_arg0)) (m ((c : Thread nD τ).loc main_arg4)) (m ((c : Thread nD τ).loc main_arg5))) (m ((c : Thread nD τ).loc main_arg6)) := by
  refine (W4_arr m ρ c 3).trans ?_
  refine (Region1.result_array (V3 m ρ) c (V3_zero m ρ c)).trans ?_
  rw [V3_main_v2, V3_main_arg6, hidden_array]

/-! ## The first aggregation and the third region -/

/-- The host operations between the second and third regions, from ANY boundary contents: what they leave in the
    third region's operand is the aggregation of the second region's result along the edges. -/
theorem stretch2 (Wv : Valuation τ sig (Elt Ideal)) : StableHlo.after hostOps2 Wv (Proc.devRef .tc main_v22)
    = Cert.Layers.aggregate (Wv (Proc.devRef .tc main_v4)) (Wv (Proc.devRef .tc main_arg1)) (Wv (Proc.devRef .tc main_arg2))
        (Wv (Proc.devRef .tc main_arg3)) (Wv (Proc.devRef .tc main_arg7)) := by
  after_results_simp
  rfl

theorem V5_main_v22 : V5 m ρ c main_v22
    = Cert.Layers.aggregate (W4 m ρ c (Proc.devRef .tc main_v4)) (m ((c : Thread nD τ).loc main_arg1)) (m ((c : Thread nD τ).loc main_arg2)) (m ((c : Thread nD τ).loc main_arg3)) (m ((c : Thread nD τ).loc main_arg7)) :=
  (stretch2 (W4 m ρ c)).trans (Cert.Layers.aggregate_congr _ (Boundary.W4_main_arg1 m ρ c) (Boundary.W4_main_arg2 m ρ c)
    (Boundary.W4_main_arg3 m ρ c) (Boundary.W4_main_arg7 m ρ c))

theorem V5_main_arg8 : V5 m ρ c main_arg8 = m ((c : Thread nD τ).loc main_arg8) := by
  show StableHlo.after hostOps2 (W4 m ρ c) (Proc.devRef .tc main_arg8) = _
  after_results
  exact Boundary.W4_main_arg8 m ρ c

theorem V5_zero (j : S1x256.Idx) : V5 m ρ c main_v23 j = (0 : EReal) := by
  have e : V5 m ρ c main_v23 = shapeCast S1x256 (W4 m ρ c (Proc.devRef .tc main_v0)) shapeCasts_S256_S1x256 := by
    show StableHlo.after hostOps2 (W4 m ρ c) (Proc.devRef .tc main_v23) = _
    after_results
    all_goals rfl
  rw [e, Boundary.W4_main_v0]
  show Ideal.ofBits .f32 0x00000000#32 = 0
  exact Ideal.ofBits_zero_f32

theorem proj2_array : W6 m ρ c (Proc.devRef .tc main_v24) = Cert.Layers.proj2 (Cert.Layers.aggregate (Cert.Layers.proj1 (Cert.Layers.hidden (m ((c : Thread nD τ).loc main_arg0)) (m ((c : Thread nD τ).loc main_arg4)) (m ((c : Thread nD τ).loc main_arg5))) (m ((c : Thread nD τ).loc main_arg6))) (m ((c : Thread nD τ).loc main_arg1)) (m ((c : Thread nD τ).loc main_arg2)) (m ((c : Thread nD τ).loc main_arg3)) (m ((c : Thread nD τ).loc main_arg7))) (m ((c : Thread nD τ).loc main_arg8)) := by
  refine (W6_arr m ρ c 3).trans ?_
  refine (Region2.result_array (V5 m ρ) c (V5_zero m ρ c)).trans ?_
  rw [V5_main_v22, V5_main_arg8, proj1_array]

/-! ## The second aggregation and the last region -/

/-- The host operations between the third and fourth regions, from any boundary contents. -/
theorem stretch3 (Wv : Valuation τ sig (Elt Ideal)) : StableHlo.after hostOps3 Wv (Proc.devRef .tc main_v42)
    = Cert.Layers.aggregate (Wv (Proc.devRef .tc main_v24)) (Wv (Proc.devRef .tc main_arg1)) (Wv (Proc.devRef .tc main_arg2))
        (Wv (Proc.devRef .tc main_arg3)) (Wv (Proc.devRef .tc main_arg9)) := by
  after_results_simp
  rfl

theorem V7_main_v42 : V7 m ρ c main_v42
    = Cert.Layers.aggregate (W6 m ρ c (Proc.devRef .tc main_v24)) (m ((c : Thread nD τ).loc main_arg1)) (m ((c : Thread nD τ).loc main_arg2)) (m ((c : Thread nD τ).loc main_arg3)) (m ((c : Thread nD τ).loc main_arg9)) :=
  (stretch3 (W6 m ρ c)).trans (Cert.Layers.aggregate_congr _ (Boundary.W6_main_arg1 m ρ c) (Boundary.W6_main_arg2 m ρ c)
    (Boundary.W6_main_arg3 m ρ c) (Boundary.W6_main_arg9 m ρ c))

theorem V7_main_arg10 : V7 m ρ c main_arg10 = m ((c : Thread nD τ).loc main_arg10) := by
  show StableHlo.after hostOps3 (W6 m ρ c) (Proc.devRef .tc main_arg10) = _
  after_results
  exact Boundary.W6_main_arg10 m ρ c

theorem V7_bias (q : Fin 128) : V7 m ρ c main_v43 (ix2 (0 : Fin 1) q) = m ((c : Thread nD τ).loc main_arg11) (ix1 q) := by
  have e : V7 m ρ c main_v43 = shapeCast S1x128 (W6 m ρ c (Proc.devRef .tc main_arg11)) shapeCasts_S128_S1x128 := by
    show StableHlo.after hostOps3 (W6 m ρ c) (Proc.devRef .tc main_v43) = _
    after_results
    all_goals rfl
  rw [e, Boundary.W6_main_arg11]
  exact shapeCast_a_1a_apply _ _ 0 q

/-- THE RESULT: at the last boundary the result array holds the whole network of the argument arrays. -/
theorem result_array : W8 m ρ c (Proc.devRef .tc main_v44) = Cert.Layers.readout (Cert.Layers.aggregate (Cert.Layers.proj2 (Cert.Layers.aggregate (Cert.Layers.proj1 (Cert.Layers.hidden (m ((c : Thread nD τ).loc main_arg0)) (m ((c : Thread nD τ).loc main_arg4)) (m ((c : Thread nD τ).loc main_arg5))) (m ((c : Thread nD τ).loc main_arg6))) (m ((c : Thread nD τ).loc main_arg1)) (m ((c : Thread nD τ).loc main_arg2)) (m ((c : Thread nD τ).loc main_arg3)) (m ((c : Thread nD τ).loc main_arg7))) (m ((c : Thread nD τ).loc main_arg8))) (m ((c : Thread nD τ).loc main_arg1)) (m ((c : Thread nD τ).loc main_arg2)) (m ((c : Thread nD τ).loc main_arg3)) (m ((c : Thread nD τ).loc main_arg9))) (m ((c : Thread nD τ).loc main_arg10)) (m ((c : Thread nD τ).loc main_arg11)) := by
  refine (W8_arr m ρ c 3).trans ?_
  refine (Region3.result_array (V7 m ρ) c (m ((c : Thread nD τ).loc main_arg11)) (V7_bias m ρ c)).trans ?_
  rw [V7_main_v42, V7_main_arg10, proj2_array]

end Cert.KernelIdeal.Network

end
-- ==== Proof.lean ====
/-
  A two-round graph network over 50000 nodes and 800000 weighted edges: a dense layer with the logistic
  function, then twice "multiply by a weight matrix, aggregate along the edges, add a bias row, clamp at zero",
  then a dense read-out layer.  The kernel runs the four matrix products as pallas_calls over blocks of 1000
  node rows (the operands narrowed to bfloat16, the sums in single precision) and leaves the edge aggregation to
  the host; the reference is the same network in plain array operations.

  On the extended reals the two programs compute ONE function of the arguments:
    * narrowing a float is the identity, and the matrix unit's product into a zero accumulator is the same sum
      over the contracted axis as the host's dot product, term for term and in the same order;
    * a row of a product depends only on the same row of the left factor, so computing the rows block by block
      changes nothing;
    * the kernel's logistic function is 1 / (1 + e^(-z)), which is how the reference spells it;
    * where the kernel adds a bias of zeros and the reference adds none, z + 0 = z;
    * the edge aggregation, the bias row and the clamp are the same host operations in both, applied to node
      matrices that are equal by the points above.
  No law used needs finiteness, so the precondition is never opened.

  The frames of the two kernel programs are the generated ones; the reference's frame is its generated run with
  the result dropped; the idealization rewrote no operation, so there is nothing to preserve.
-/
import proofs.«130241_j25829933318528_1_alg».proof.Defs
import proofs.«130241_j25829933318528_1_alg».proof.Proof.Gen.Kernel
import proofs.«130241_j25829933318528_1_alg».proof.Proof.Gen.Kernel.Skeleton
import proofs.«130241_j25829933318528_1_alg».proof.Proof.Gen.Kernel.Launch
import proofs.«130241_j25829933318528_1_alg».proof.Proof.Gen.Kernel.Points
import proofs.«130241_j25829933318528_1_alg».proof.Proof.Gen.Kernel.Frame
import proofs.«130241_j25829933318528_1_alg».proof.Proof.Gen.KernelIdeal
import proofs.«130241_j25829933318528_1_alg».proof.Proof.Gen.KernelIdeal.Skeleton
import proofs.«130241_j25829933318528_1_alg».proof.Proof.Gen.KernelIdeal.Launch
import proofs.«130241_j25829933318528_1_alg».proof.Proof.Gen.KernelIdeal.Points
import proofs.«130241_j25829933318528_1_alg».proof.Proof.Gen.KernelIdeal.Frame
import proofs.«130241_j25829933318528_1_alg».proof.Proof.Gen.ReferenceIdeal
import proofs.«130241_j25829933318528_1_alg».proof.Proof.Gen.ReferenceIdeal.Run
import proofs.«130241_j25829933318528_1_alg».proof.Proof.Gen.ReferenceIdeal.Read
import proofs.«130241_j25829933318528_1_alg».proof.Proof.Gen.Pre_finite_inputs
import proofs.«130241_j25829933318528_1_alg».proof.Proof.Layers
import proofs.«130241_j25829933318528_1_alg».proof.Proof.KernelRun
import proofs.«130241_j25829933318528_1_alg».proof.Proof.Network
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the result array holding the whole network
    of the argument arrays: the kernel by its run with the result named and the boundary walk, the reference by
    its generated run read as the four layers and two aggregations composed. -/
theorem algebraic : Cert.algebraic_KernelIdeal_ReferenceIdeal := by
  intro m ρ m' ρ' _ hagree
  refine ⟨fun c => Cert.Layers.readout (Cert.Layers.aggregate (Cert.Layers.proj2 (Cert.Layers.aggregate (Cert.Layers.proj1 (Cert.Layers.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7))) (m ((c.tc : Thread Cert.KernelIdeal.nD Cert.KernelIdeal.τ).loc Cert.KernelIdeal.main_arg8))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Network.result_array m ρ c), (h c).2⟩)
      (Cert.KernelIdeal.Result.run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v49_eq, Cert.Layers.ref_network, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
